-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64x3x3 : Shape := ⟨3, ![64, 3, 3]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_

variable [Facts]

def fn {F : FTy → Type} [FloatOps F] (main_arg0 : FVec F S16x64x256x256 .f32) (main_arg1 : FVec F S64x3x3 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64x3x3 .f32 := Host.absf main_arg1
  let main_cst_0 : FVec F S_ .f32 := constant S_ .f32 0x7F800000#32
  let main_v5 : FVec F S64x3x3 .f32 := broadcastInDim S64x3x3 ![] bcast_S_S64x3x3 main_cst_0
  let main_v6 : IVec S64x3x3 1 := cmpf .olt main_v4 main_v5
  let main_c_1 : IVec S_ 1 := constantI S_ 1 1#1
  let main_v7 : IVec S_ 1 := (fun x v => Host.reduce IntOp.andi x v reducesTo_S64x3x3_S_d0_1_2 h_S_) main_v6 main_c_1
  let main_v8 : IVec S_ 1 := andi main_v3 main_v7
  main_v8
-- ==== Kernel.lean ====
abbrev S16x64x256x256 : Shape := ⟨4, ![16, 64, 256, 256]⟩
abbrev S64x3x3 : Shape := ⟨3, ![64, 3, 3]⟩
abbrev S64x9 : Shape := ⟨2, ![64, 9]⟩
abbrev S1x16x256x256 : Shape := ⟨4, ![1, 16, 256, 256]⟩
abbrev S16x9 : Shape := ⟨2, ![16, 9]⟩
abbrev S16x256x256 : Shape := ⟨3, ![16, 256, 256]⟩
abbrev S16x1x256 : Shape := ⟨3, ![16, 1, 256]⟩
abbrev S16x255x256 : Shape := ⟨3, ![16, 255, 256]⟩
abbrev S16x256x1 : Shape := ⟨3, ![16, 256, 1]⟩
abbrev S16x256x255 : Shape := ⟨3, ![16, 256, 255]⟩
abbrev S16x1 : Shape := ⟨2, ![16, 1]⟩
abbrev S16 : Shape := ⟨1, ![16]⟩
abbrev S16x1x1 : Shape := ⟨3, ![16, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S16x64x256x256, .f32⟩
  | .hbm, ⟨1, _⟩ => ⟨S64x3x3, .f32⟩
  | .hbm, ⟨2, _⟩ => ⟨S64x9, .f32⟩
  | .hbm, ⟨3, _⟩ => ⟨S16x64x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S16x9, .f32⟩
  | .local _ .vmem, ⟨3, _⟩ => ⟨S16x9, .f32⟩
  | .local _ .vmem, ⟨4, _⟩ => ⟨S1x16x256x256, .f32⟩
  | .local _ .vmem, ⟨5, _⟩ => ⟨S1x16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x3x3_S64x9 : S64x3x3.ShapeCasts S64x9
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  inb_S16x9_S16x9_0_0 : ∀ a, (![0, 0] : Fin 2 → Nat) a + S16x9.size a ≤ S16x9.size a
  h_S16x9 : 0 < S16x9.numel
  shapeCasts_S16x9_S16x9 : S16x9.ShapeCasts S16x9
  slices_S16x256x256_o0_0_0_S16x255x256 : S16x256x256.Slices ![0, 0, 0] S16x255x256
  concatenates_S16x1x256_S16x255x256_S16x256x256_d1 : Shape.Concatenates [S16x1x256, S16x255x256] S16x256x256 1
  slices_S16x256x256_o0_0_0_S16x256x255 : S16x256x256.Slices ![0, 0, 0] S16x256x255
  concatenates_S16x256x1_S16x256x255_S16x256x256_d2 : Shape.Concatenates [S16x256x1, S16x256x255] S16x256x256 2
  slices_S16x9_o0_0_S16x1 : S16x9.Slices ![0, 0] S16x1
  shapeCasts_S16x1_S16 : S16x1.ShapeCasts S16
  shapeCasts_S16_S16x1x1 : S16.ShapeCasts S16x1x1
  broadcasts_S16x1x1_S16x256x256 : S16x1x1.Broadcasts S16x256x256
  slices_S16x9_o0_1_S16x1 : S16x9.Slices ![0, 1] S16x1
  slices_S16x256x256_o0_0_1_S16x256x255 : S16x256x256.Slices ![0, 0, 1] S16x256x255
  concatenates_S16x256x255_S16x256x1_S16x256x256_d2 : Shape.Concatenates [S16x256x255, S16x256x1] S16x256x256 2
  slices_S16x9_o0_2_S16x1 : S16x9.Slices ![0, 2] S16x1
  slices_S16x9_o0_3_S16x1 : S16x9.Slices ![0, 3] S16x1
  slices_S16x9_o0_4_S16x1 : S16x9.Slices ![0, 4] S16x1
  slices_S16x9_o0_5_S16x1 : S16x9.Slices ![0, 5] S16x1
  slices_S16x256x256_o0_1_0_S16x255x256 : S16x256x256.Slices ![0, 1, 0] S16x255x256
  concatenates_S16x255x256_S16x1x256_S16x256x256_d1 : Shape.Concatenates [S16x255x256, S16x1x256] S16x256x256 1
  slices_S16x9_o0_6_S16x1 : S16x9.Slices ![0, 6] S16x1
  slices_S16x9_o0_7_S16x1 : S16x9.Slices ![0, 7] S16x1
  slices_S16x9_o0_8_S16x1 : S16x9.Slices ![0, 8] S16x1
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S16x64x256x256.size a
  hwx0_0 : ∀ i : grid0.Coords, EltTy.bits .f32 = 32 ∨ (Rect.block (s := S16x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x9.size a ≤ S64x9.size a
  hwx0_1 : ∀ i : grid0.Coords, EltTy.bits .f32 = 32 ∨ (Rect.block (s := S64x9) S16x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S16x64x256x256.size a
  hwx0_2 : ∀ i : grid0.Coords, EltTy.bits .f32 = 32 ∨ (Rect.block (s := S16x64x256x256) S1x16x256x256.size (cc0_transform_2 i) (hinb0_2 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S64x3x3 : Shape := ⟨3, ![64, 3, 3]⟩
abbrev S_ : Shape := ⟨0, ![]⟩
abbrev S16x64x258x258 : Shape := ⟨4, ![16, 64, 258, 258]⟩
abbrev S64x1x1 : Shape := ⟨3, ![64, 1, 1]⟩
abbrev S64 : Shape := ⟨1, ![64]⟩
abbrev S1x64x1x1 : Shape := ⟨4, ![1, 64, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64x3x3, .f32⟩
  | .hbm, ⟨2, _⟩ => ⟨S_, .f32⟩
  | .hbm, ⟨3, _⟩ => ⟨S_, .f32⟩
  | .hbm, ⟨4, _⟩ => ⟨S16x64x258x258, .f32⟩
  | .hbm, ⟨5, _⟩ => ⟨S16x64x256x256, .f32⟩
  | .hbm, ⟨6, _⟩ => ⟨S64x1x1, .f32⟩
  | .hbm, ⟨7, _⟩ => ⟨S64, .f32⟩
  | .hbm, ⟨8, _⟩ => ⟨S1x64x1x1, .f32⟩
  | .hbm, ⟨9, _⟩ => ⟨S16x64x256x256, .f32⟩
  | .hbm, ⟨10, _⟩ => ⟨S16x64x256x256, .f32⟩
  | .hbm, ⟨11, _⟩ => ⟨S16x64x256x256, .f32⟩
  | .hbm, ⟨12, _⟩ => ⟨S64x1x1, .f32⟩
  | .hbm, ⟨13, _⟩ => ⟨S64, .f32⟩
  | .hbm, ⟨14, _⟩ => ⟨S1x64x1x1, .f32⟩
  | .hbm, ⟨15, _⟩ => ⟨S16x64x256x256, .f32⟩
  | .hbm, ⟨16, _⟩ => ⟨S16x64x256x256, .f32⟩
  | .hbm, ⟨17, _⟩ => ⟨S16x64x256x256, .f32⟩
  | .hbm, ⟨18, _⟩ => ⟨S16x64x256x256, .f32⟩
  | .hbm, ⟨19, _⟩ => ⟨S64x1x1, .f32⟩
  | .hbm, ⟨20, _⟩ => ⟨S64, .f32⟩
  | .hbm, ⟨21, _⟩ => ⟨S1x64x1x1, .f32⟩
  | .hbm, ⟨22, _⟩ => ⟨S16x64x256x256, .f32⟩
  | .hbm, ⟨23, _⟩ => ⟨S16x64x256x256, .f32⟩
  | .hbm, ⟨24, _⟩ => ⟨S16x64x256x256, .f32⟩
  | .hbm, ⟨25, _⟩ => ⟨S16x64x256x256, .f32⟩
  | .hbm, ⟨26, _⟩ => ⟨S64x1x1, .f32⟩
  | .hbm, ⟨27, _⟩ => ⟨S64, .f32⟩
  | .hbm, ⟨28, _⟩ => ⟨S1x64x1x1, .f32⟩
  | .hbm, ⟨29, _⟩ => ⟨S16x64x256x256, .f32⟩
  | .hbm, ⟨30, _⟩ => ⟨S16x64x256x256, .f32⟩
  | .hbm, ⟨31, _⟩ => ⟨S16x64x256x256, .f32⟩
  | .hbm, ⟨32, _⟩ => ⟨S16x64x256x256, .f32⟩
  | .hbm, ⟨33, _⟩ => ⟨S64x1x1, .f32⟩
  | .hbm, ⟨34, _⟩ => ⟨S64, .f32⟩
  | .hbm, ⟨35, _⟩ => ⟨S1x64x1x1, .f32⟩
  | .hbm, ⟨36, _⟩ => ⟨S16x64x256x256, .f32⟩
  | .hbm, ⟨37, _⟩ => ⟨S16x64x256x256, .f32⟩
  | .hbm, ⟨38, _⟩ => ⟨S16x64x256x256, .f32⟩
  | .hbm, ⟨39, _⟩ => ⟨S16x64x256x256, .f32⟩
  | .hbm, ⟨40, _⟩ => ⟨S64x1x1, .f32⟩
  | .hbm, ⟨41, _⟩ => ⟨S64, .f32⟩
  | .hbm, ⟨42, _⟩ => ⟨S1x64x1x1, .f32⟩
  | .hbm, ⟨43, _⟩ => ⟨S16x64x256x256, .f32⟩
  | .hbm, ⟨44, _⟩ => ⟨S16x64x256x256, .f32⟩
  | .hbm, ⟨45, _⟩ => ⟨S16x64x256x256, .f32⟩
  | .hbm, ⟨46, _⟩ => ⟨S16x64x256x256, .f32⟩
  | .hbm, ⟨47, _⟩ => ⟨S64x1x1, .f32⟩
  | .hbm, ⟨48, _⟩ => ⟨S64, .f32⟩
  | .hbm, ⟨49, _⟩ => ⟨S1x64x1x1, .f32⟩
  | .hbm, ⟨50, _⟩ => ⟨S16x64x256x256, .f32⟩
  | .hbm, ⟨51, _⟩ => ⟨S16x64x256x256, .f32⟩
  | .hbm, ⟨52, _⟩ => ⟨S16x64x256x256, .f32⟩
  | .hbm, ⟨53, _⟩ => ⟨S16x64x256x256, .f32⟩
  | .hbm, ⟨54, _⟩ => ⟨S64x1x1, .f32⟩
  | .hbm, ⟨55, _⟩ => ⟨S64, .f32⟩
  | .hbm, ⟨56, _⟩ => ⟨S1x64x1x1, .f32⟩
  | .hbm, ⟨57, _⟩ => ⟨S16x64x256x256, .f32⟩
  | .hbm, ⟨58, _⟩ => ⟨S16x64x256x256, .f32⟩
  | .hbm, ⟨59, _⟩ => ⟨S16x64x256x256, .f32⟩
  | .hbm, ⟨60, _⟩ => ⟨S16x64x256x256, .f32⟩
  | .hbm, ⟨61, _⟩ => ⟨S64x1x1, .f32⟩
  | .hbm, ⟨62, _⟩ => ⟨S64, .f32⟩
  | .hbm, ⟨63, _⟩ => ⟨S1x64x1x1, .f32⟩
  | .hbm, ⟨64, _⟩ => ⟨S16x64x256x256, .f32⟩
  | .hbm, ⟨65, _⟩ => ⟨S16x64x256x256, .f32⟩
  | .hbm, ⟨66, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩

abbrev nD : Nat := 1
abbrev τ : Topo := Topo.v7x

variable {F : FTy → Type} [FloatOps F]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  slices_S16x64x258x258_S16x64x256x256_0_0_0_0 : S16x64x258x258.Slices ![0, 0, 0, 0] S16x64x256x256
  slices_S64x3x3_S64x1x1_0_0_0 : S64x3x3.Slices ![0, 0, 0] S64x1x1
  shapeCasts_S64x1x1_S64 : S64x1x1.ShapeCasts S64
  bcast_S64_S1x64x1x1_1 : S64.BroadcastsInDim S1x64x1x1 (![1] : Fin 1 → Fin S1x64x1x1.rank)
  bcast_S1x64x1x1_S16x64x256x256_0_1_2_3 : S1x64x1x1.BroadcastsInDim S16x64x256x256 (![0, 1, 2, 3] : Fin 4 → Fin S16x64x256x256.rank)
  slices_S16x64x258x258_S16x64x256x256_0_0_0_1 : S16x64x258x258.Slices ![0, 0, 0, 1] S16x64x256x256
  slices_S64x3x3_S64x1x1_0_0_1 : S64x3x3.Slices ![0, 0, 1] S64x1x1
  slices_S16x64x258x258_S16x64x256x256_0_0_0_2 : S16x64x258x258.Slices ![0, 0, 0, 2] S16x64x256x256
  slices_S64x3x3_S64x1x1_0_0_2 : S64x3x3.Slices ![0, 0, 2] S64x1x1
  slices_S16x64x258x258_S16x64x256x256_0_0_1_0 : S16x64x258x258.Slices ![0, 0, 1, 0] S16x64x256x256
  slices_S64x3x3_S64x1x1_0_1_0 : S64x3x3.Slices ![0, 1, 0] S64x1x1
  slices_S16x64x258x258_S16x64x256x256_0_0_1_1 : S16x64x258x258.Slices ![0, 0, 1, 1] S16x64x256x256
  slices_S64x3x3_S64x1x1_0_1_1 : S64x3x3.Slices ![0, 1, 1] S64x1x1
  slices_S16x64x258x258_S16x64x256x256_0_0_1_2 : S16x64x258x258.Slices ![0, 0, 1, 2] S16x64x256x256
  slices_S64x3x3_S64x1x1_0_1_2 : S64x3x3.Slices ![0, 1, 2] S64x1x1
  slices_S16x64x258x258_S16x64x256x256_0_0_2_0 : S16x64x258x258.Slices ![0, 0, 2, 0] S16x64x256x256
  slices_S64x3x3_S64x1x1_0_2_0 : S64x3x3.Slices ![0, 2, 0] S64x1x1
  slices_S16x64x258x258_S16x64x256x256_0_0_2_1 : S16x64x258x258.Slices ![0, 0, 2, 1] S16x64x256x256
  slices_S64x3x3_S64x1x1_0_2_1 : S64x3x3.Slices ![0, 2, 1] S64x1x1
  slices_S16x64x258x258_S16x64x256x256_0_0_2_2 : S16x64x258x258.Slices ![0, 0, 2, 2] S16x64x256x256
  slices_S64x3x3_S64x1x1_0_2_2 : S64x3x3.Slices ![0, 2, 2] S64x1x1

variable [Facts₀]

class Facts : Prop extends Facts₀ where

variable [Facts]
-- ==== Proof.LibShift.lean ====
/-
  A border-filled one-step shift of a rank-3 array along its middle or last axis, as a vector program spells it — a
  unit-stride slice that drops the far row (column) concatenated with one constant row (column) — read at coordinates;
  a column of a matrix spread over a rank-3 array (slice, two shape casts, a broadcast) read at coordinates; and a
  rank-4 array padded by one constant entry on both sides of its two last axes, read at coordinates: inside the
  border it is the operand one step back on both axes, on the border it is the padding value.
-/
import Idealize.ShloMosaic.Lib.Pipeline.Value
import Idealize.ShloMosaic.Lib.ValueIdx
import Idealize.ShloMosaic.Lib.ValueLayout
import Idealize.ShloMosaic.Lib.KernelVsHost

namespace Cert.Lib.Shift

open Idealize.ShloMosaic Idealize.ShloMosaic.ValueIdx

variable {α : Type}

/-! ## One step along the middle axis -/

/-- The rows moved one step towards higher indices: row `0` is the fill value, row `j > 0` is the operand's row `j - 1`. -/
theorem fill_first_row_apply {n0 n1 m n2 : ℕ} (z : α) (X : (⟨3, ![n0, n1, n2]⟩ : Shape).Idx → α) (hm : n1 = m + 1)
    (hs : (⟨3, ![n0, n1, n2]⟩ : Shape).Slices ![0, 0, 0] ⟨3, ![n0, m, n2]⟩)
    (hc : Shape.Concatenates [⟨3, ![n0, 1, n2]⟩, ⟨3, ![n0, m, n2]⟩] ⟨3, ![n0, n1, n2]⟩ 1)
    (a : Fin n0) (j : Fin n1) (e : Fin n2) :
    concatenate ⟨3, ![n0, n1, n2]⟩ 1 [⟨⟨3, ![n0, 1, n2]⟩, broadcast ⟨3, ![n0, 1, n2]⟩ z⟩,
        ⟨⟨3, ![n0, m, n2]⟩, extractStridedSlice ⟨3, ![n0, m, n2]⟩ ![0, 0, 0] X hs⟩] hc (ix3 a j e)
      = if j.val = 0 then z else X (ix3 a ⟨j.val - 1, by have := j.isLt; omega⟩ e) := by
  by_cases h0 : j.val = 0
  · rw [if_pos h0]
    exact concatenate_pair_apply_left 1 _ _ hc _ rfl (ix3 a ⟨0, Nat.one_pos⟩ e) (fun b => by
      match b with
      | ⟨0, _⟩ => rfl
      | ⟨1, _⟩ => exact h0.symm
      | ⟨2, _⟩ => rfl)
  · rw [if_neg h0]
    have hj : j.val - 1 < m := by have := j.isLt; omega
    refine (concatenate_pair_apply_right 1 _ _ hc _ rfl rfl (ix3 a ⟨j.val - 1, hj⟩ e) (fun b hb => by
      match b with
      | ⟨0, _⟩ => rfl
      | ⟨1, _⟩ => exact absurd rfl hb
      | ⟨2, _⟩ => rfl) (by show (j.val - 1) + 1 = j.val; omega)).trans ?_
    exact slice3_axis1_apply 0 X hs a ⟨j.val - 1, hj⟩ e ⟨j.val - 1, by have := j.isLt; omega⟩ (Nat.zero_add _).symm

/-- The rows moved one step towards lower indices: the last row is the fill value, row `j` before it is the operand's row `j + 1`. -/
theorem fill_last_row_apply {n0 n1 m n2 : ℕ} (z : α) (X : (⟨3, ![n0, n1, n2]⟩ : Shape).Idx → α) (hm : n1 = m + 1)
    (hs : (⟨3, ![n0, n1, n2]⟩ : Shape).Slices ![0, 1, 0] ⟨3, ![n0, m, n2]⟩)
    (hc : Shape.Concatenates [⟨3, ![n0, m, n2]⟩, ⟨3, ![n0, 1, n2]⟩] ⟨3, ![n0, n1, n2]⟩ 1)
    (a : Fin n0) (j : Fin n1) (e : Fin n2) :
    concatenate ⟨3, ![n0, n1, n2]⟩ 1 [⟨⟨3, ![n0, m, n2]⟩, extractStridedSlice ⟨3, ![n0, m, n2]⟩ ![0, 1, 0] X hs⟩,
        ⟨⟨3, ![n0, 1, n2]⟩, broadcast ⟨3, ![n0, 1, n2]⟩ z⟩] hc (ix3 a j e)
      = if h : j.val = m then z else X (ix3 a ⟨j.val + 1, by have := j.isLt; omega⟩ e) := by
  by_cases h0 : j.val = m
  · rw [dif_pos h0]
    exact concatenate_pair_apply_right 1 _ _ hc _ rfl rfl (ix3 a ⟨0, Nat.one_pos⟩ e) (fun b hb => by
      match b with
      | ⟨0, _⟩ => rfl
      | ⟨1, _⟩ => exact absurd rfl hb
      | ⟨2, _⟩ => rfl) (by show 0 + m = j.val; omega)
  · rw [dif_neg h0]
    have hj : j.val < m := by have := j.isLt; omega
    refine (concatenate_pair_apply_left 1 _ _ hc _ rfl (ix3 a ⟨j.val, hj⟩ e) (fun b => by
      match b with
      | ⟨0, _⟩ => rfl
      | ⟨1, _⟩ => rfl
      | ⟨2, _⟩ => rfl)).trans ?_
    exact slice3_axis1_apply 1 X hs a ⟨j.val, hj⟩ e ⟨j.val + 1, by have := j.isLt; omega⟩ (Nat.add_comm _ _)

/-! ## One step along the last axis -/

/-- The columns moved one step towards higher indices: column `0` is the fill value, column `e > 0` is the operand's column `e - 1`. -/
theorem fill_first_col_apply {n0 n1 n2 m : ℕ} (z : α) (X : (⟨3, ![n0, n1, n2]⟩ : Shape).Idx → α) (hm : n2 = m + 1)
    (hs : (⟨3, ![n0, n1, n2]⟩ : Shape).Slices ![0, 0, 0] ⟨3, ![n0, n1, m]⟩)
    (hc : Shape.Concatenates [⟨3, ![n0, n1, 1]⟩, ⟨3, ![n0, n1, m]⟩] ⟨3, ![n0, n1, n2]⟩ 2)
    (a : Fin n0) (j : Fin n1) (e : Fin n2) :
    concatenate ⟨3, ![n0, n1, n2]⟩ 2 [⟨⟨3, ![n0, n1, 1]⟩, broadcast ⟨3, ![n0, n1, 1]⟩ z⟩,
        ⟨⟨3, ![n0, n1, m]⟩, extractStridedSlice ⟨3, ![n0, n1, m]⟩ ![0, 0, 0] X hs⟩] hc (ix3 a j e)
      = if e.val = 0 then z else X (ix3 a j ⟨e.val - 1, by have := e.isLt; omega⟩) := by
  by_cases h0 : e.val = 0
  · rw [if_pos h0]
    exact concatenate_pair_apply_left 2 _ _ hc _ rfl (ix3 a j ⟨0, Nat.one_pos⟩) (fun b => by
      match b with
      | ⟨0, _⟩ => rfl
      | ⟨1, _⟩ => rfl
      | ⟨2, _⟩ => exact h0.symm)
  · rw [if_neg h0]
    have he : e.val - 1 < m := by have := e.isLt; omega
    refine (concatenate_pair_apply_right 2 _ _ hc _ rfl rfl (ix3 a j ⟨e.val - 1, he⟩) (fun b hb => by
      match b with
      | ⟨0, _⟩ => rfl
      | ⟨1, _⟩ => rfl
      | ⟨2, _⟩ => exact absurd rfl hb) (by show (e.val - 1) + 1 = e.val; omega)).trans ?_
    exact extractStridedSlice_apply _ X hs _ _ (fun ax => by
      match ax with
      | ⟨0, _⟩ => exact (Nat.zero_add _).symm
      | ⟨1, _⟩ => exact (Nat.zero_add _).symm
      | ⟨2, _⟩ => exact (Nat.zero_add _).symm)

/-- The columns moved one step towards lower indices: the last column is the fill value, column `e` before it is the operand's column `e + 1`. -/
theorem fill_last_col_apply {n0 n1 n2 m : ℕ} (z : α) (X : (⟨3, ![n0, n1, n2]⟩ : Shape).Idx → α) (hm : n2 = m + 1)
    (hs : (⟨3, ![n0, n1, n2]⟩ : Shape).Slices ![0, 0, 1] ⟨3, ![n0, n1, m]⟩)
    (hc : Shape.Concatenates [⟨3, ![n0, n1, m]⟩, ⟨3, ![n0, n1, 1]⟩] ⟨3, ![n0, n1, n2]⟩ 2)
    (a : Fin n0) (j : Fin n1) (e : Fin n2) :
    concatenate ⟨3, ![n0, n1, n2]⟩ 2 [⟨⟨3, ![n0, n1, m]⟩, extractStridedSlice ⟨3, ![n0, n1, m]⟩ ![0, 0, 1] X hs⟩,
        ⟨⟨3, ![n0, n1, 1]⟩, broadcast ⟨3, ![n0, n1, 1]⟩ z⟩] hc (ix3 a j e)
      = if h : e.val = m then z else X (ix3 a j ⟨e.val + 1, by have := e.isLt; omega⟩) := by
  by_cases h0 : e.val = m
  · rw [dif_pos h0]
    exact concatenate_pair_apply_right 2 _ _ hc _ rfl rfl (ix3 a j ⟨0, Nat.one_pos⟩) (fun b hb => by
      match b with
      | ⟨0, _⟩ => rfl
      | ⟨1, _⟩ => rfl
      | ⟨2, _⟩ => exact absurd rfl hb) (by show 0 + m = e.val; omega)
  · rw [dif_neg h0]
    have he : e.val < m := by have := e.isLt; omega
    refine (concatenate_pair_apply_left 2 _ _ hc _ rfl (ix3 a j ⟨e.val, he⟩) (fun b => by
      match b with
      | ⟨0, _⟩ => rfl
      | ⟨1, _⟩ => rfl
      | ⟨2, _⟩ => rfl)).trans ?_
    exact extractStridedSlice_apply _ X hs _ _ (fun ax => by
      match ax with
      | ⟨0, _⟩ => exact (Nat.zero_add _).symm
      | ⟨1, _⟩ => exact (Nat.zero_add _).symm
      | ⟨2, _⟩ => exact (Nat.add_comm _ _))

/-! ## A column of a matrix spread over a rank-3 array -/

/-- Column `k` of an `[n0, K]` matrix, cut out as `[n0, 1]`, cast to `[n0]` and to `[n0, 1, 1]`, and broadcast to
    `[n0, n1, n2]`, is at `(a, j, e)` the matrix entry `(a, k)`. -/
theorem column_spread_apply {n0 n1 n2 K : ℕ} (k : ℕ) (hk : k < K) (W : (⟨2, ![n0, K]⟩ : Shape).Idx → α)
    (hs : (⟨2, ![n0, K]⟩ : Shape).Slices ![0, k] ⟨2, ![n0, 1]⟩)
    (h1 : (⟨2, ![n0, 1]⟩ : Shape).ShapeCasts ⟨1, ![n0]⟩)
    (h2 : (⟨1, ![n0]⟩ : Shape).ShapeCasts ⟨3, ![n0, 1, 1]⟩)
    (hb : (⟨3, ![n0, 1, 1]⟩ : Shape).Broadcasts ⟨3, ![n0, n1, n2]⟩)
    (a : Fin n0) (j : Fin n1) (e : Fin n2) :
    broadcastTo ⟨3, ![n0, n1, n2]⟩ (shapeCast ⟨3, ![n0, 1, 1]⟩ (shapeCast ⟨1, ![n0]⟩
        (extractStridedSlice ⟨2, ![n0, 1]⟩ ![0, k] W hs) h1) h2) hb (ix3 a j e) = W (ix2 a ⟨k, hk⟩) := by
  refine (broadcastTo_apply _ hb _ (ix3 a ⟨0, Nat.one_pos⟩ ⟨0, Nat.one_pos⟩) (fun b => ?_)).trans ?_
  · match b with
    | ⟨0, _⟩ =>
      show a.val = if n0 = 1 then 0 else a.val
      by_cases h : n0 = 1
      · rw [if_pos h]; have := a.isLt; omega
      · rw [if_neg h]
    | ⟨1, _⟩ => show 0 = if (1 : ℕ) = 1 then 0 else j.val; rw [if_pos rfl]
    | ⟨2, _⟩ => show 0 = if (1 : ℕ) = 1 then 0 else e.val; rw [if_pos rfl]
  refine (shapeCast_apply _ h2 _ (ix1 a) ?_).trans ?_
  · rw [Shape.rowMajor_val_three, Shape.rowMajor_val_one]
    show a.val = (a.val * 1 + 0) * 1 + 0
    omega
  refine (shapeCast_apply _ h1 _ (ix2 a ⟨0, Nat.one_pos⟩) ?_).trans ?_
  · rw [Shape.rowMajor_val_two, Shape.rowMajor_val_one]
    show a.val * 1 + 0 = a.val
    omega
  exact slice2_axis1_apply k W hs a ⟨0, Nat.one_pos⟩ ⟨k, hk⟩ (Nat.add_zero _).symm

/-! ## A one-entry border on the two last axes of a rank-4 array -/

/-- A rank-4 array padded with one entry on both sides of its two last axes: at `(a, b, r, s)` with `1 ≤ r ≤ n2` and
    `1 ≤ s ≤ n3` it is the operand at `(a, b, r - 1, s - 1)`; elsewhere — on the border — it is the padding value. -/
theorem pad_border_apply {n0 n1 n2 n3 N2 N3 : ℕ} (h2 : N2 = n2 + 2) (h3 : N3 = n3 + 2)
    (X : (⟨4, ![n0, n1, n2, n3]⟩ : Shape).Idx → α) {u : Shape} (v : u.Idx → α)
    (hp : (⟨4, ![n0, n1, n2, n3]⟩ : Shape).Pads ![0, 0, 1, 1] ![0, 0, 1, 1] ![0, 0, 0, 0] ⟨4, ![n0, n1, N2, N3]⟩)
    (hu : 0 < u.numel) (a : Fin n0) (b : Fin n1) (r : Fin N2) (s : Fin N3) :
    pad ⟨4, ![n0, n1, N2, N3]⟩ ![0, 0, 1, 1] ![0, 0, 1, 1] ![0, 0, 0, 0] X v hp hu (ix4 a b r s)
      = if h : (1 ≤ r.val ∧ r.val ≤ n2) ∧ (1 ≤ s.val ∧ s.val ≤ n3) then
          X (ix4 a b ⟨r.val - 1, by omega⟩ ⟨s.val - 1, by omega⟩)
        else v (Shape.Idx.first hu) := by
  by_cases h : (1 ≤ r.val ∧ r.val ≤ n2) ∧ (1 ≤ s.val ∧ s.val ≤ n3)
  · rw [dif_pos h]
    exact pad_apply_of_inside _ _ _ X v hp hu _ (ix4 a b ⟨r.val - 1, by omega⟩ ⟨s.val - 1, by omega⟩) (fun ax => by
      match ax with
      | ⟨0, _⟩ => show a.val = 0 + a.val * (0 + 1); omega
      | ⟨1, _⟩ => show b.val = 0 + b.val * (0 + 1); omega
      | ⟨2, _⟩ => show r.val = 1 + (r.val - 1) * (0 + 1); omega
      | ⟨3, _⟩ => show s.val = 1 + (s.val - 1) * (0 + 1); omega)
  · rw [dif_neg h]
    rcases not_and_or.mp h with hr | hs
    · exact pad_apply_of_not_inside _ _ _ X v hp hu _ ⟨2, (by show 2 < 4; decide)⟩ (fun hin => hr (by
        have e1 : 1 ≤ r.val := hin.1
        have e2 : (r.val - 1) / (0 + 1) < n2 := hin.2.2
        rw [Nat.zero_add, Nat.div_one] at e2
        omega))
    · exact pad_apply_of_not_inside _ _ _ X v hp hu _ ⟨3, (by show 3 < 4; decide)⟩ (fun hin => hs (by
        have e1 : 1 ≤ s.val := hin.1
        have e2 : (s.val - 1) / (0 + 1) < n3 := hin.2.2
        rw [Nat.zero_add, Nat.div_one] at e2
        omega))

end Cert.Lib.Shift
-- ==== Proof.Dilation.lean ====
/-
  Grey-scale dilation of an image by a 3×3 structuring element, as arithmetic on any carrier `α` with two binary
  operations `add` and `mx` (no law of either is used): the image is surrounded by a one-entry border of a constant
  `z`; the value at `(h, w)` combines by `mx`, in the fixed order of the taps `(0,0), (0,1), …, (2,2)`, the nine
  terms `add (padded image at (h + p, w + q)) (element's entry (p, q))`.
  Here: that combination (`dil9`), the bordered read (`padRead`), the whole-array function `G` over a batch of
  64-channel 256×256 images with one structuring element per channel, and the same combination computed on one tile of
  16 channels the way a vector program does it — each tap's window made from the tile by at most one row step and one
  column step that fill the vacated row or column with `z` (`body`) — with the proof that `body` at a coordinate is
  `dil9` of bordered reads of the tile (`body_apply`).
-/
import proofs.«161771_j52261162058289_2_alg».proof.Proof.LibShift

namespace Cert.Dilation

open Idealize.ShloMosaic Idealize.ShloMosaic.ValueIdx Cert.Lib.Shift

variable {α : Type}

/-! ## The specification -/

/-- The nine taps combined: `R p q` is the bordered image at the point moved by tap `(p, q)`, `B k` the structuring
    element's entry of tap `k = 3 p + q`. -/
def dil9 (add mx : α → α → α) (R : ℕ → ℕ → α) (B : ℕ → α) : α :=
  mx (mx (mx (mx (mx (mx (mx (mx (add (R 0 0) (B 0)) (add (R 0 1) (B 1))) (add (R 0 2) (B 2))) (add (R 1 0) (B 3)))
    (add (R 1 1) (B 4))) (add (R 1 2) (B 5))) (add (R 2 0) (B 6))) (add (R 2 1) (B 7))) (add (R 2 2) (B 8))

/-- A 256×256 image surrounded by a one-entry border of `z`, read at bordered coordinates `(r, s)` in `0 … 257`. -/
def padRead (z : α) (Y : Fin 256 → Fin 256 → α) (r s : ℕ) : α :=
  if h : (1 ≤ r ∧ r ≤ 256) ∧ (1 ≤ s ∧ s ≤ 256) then Y ⟨r - 1, by omega⟩ ⟨s - 1, by omega⟩ else z

abbrev A4 : Shape := ⟨4, ![16, 64, 256, 256]⟩
abbrev W3 : Shape := ⟨3, ![64, 3, 3]⟩
abbrev T3 : Shape := ⟨3, ![16, 256, 256]⟩
abbrev K2 : Shape := ⟨2, ![16, 9]⟩

/-- The dilation at image `b`, channel `c`, point `(h, w)`. -/
def Gat (add mx : α → α → α) (z : α) (X : A4.Idx → α) (W : W3.Idx → α) (b : Fin 16) (c : Fin 64) (h w : Fin 256) : α :=
  dil9 add mx (fun p q => padRead z (fun h' w' => X (ix4 b c h' w')) (h.val + p) (w.val + q))
    (fun k => W (ix3 c ⟨k / 3 % 3, Nat.mod_lt _ (by decide)⟩ ⟨k % 3, Nat.mod_lt _ (by decide)⟩))

/-- The dilation of the whole batch. -/
def G (add mx : α → α → α) (z : α) (X : A4.Idx → α) (W : W3.Idx → α) : A4.Idx → α :=
  fun i => Gat add mx z X W (i 0) (i 1) (i 2) (i 3)

/-! ## The nine windows of a tile -/

/-- `u` is the tile `v`'s bordered image moved by `(p, q)`: at `(c, h, w)` it reads the border-surrounded channel `c`
    of `v` at `(h + p, w + q)`. The tile itself is the move by `(1, 1)`. -/
def IsTap (z : α) (v u : T3.Idx → α) (p q : ℕ) : Prop :=
  ∀ (c : Fin 16) (h w : Fin 256), u (ix3 c h w) = padRead z (fun h' w' => v (ix3 c h' w')) (h.val + p) (w.val + q)

theorem isTap_self (z : α) (v : T3.Idx → α) : IsTap z v v 1 1 := fun c h w => by
  unfold padRead
  rw [dif_pos ⟨⟨by omega, by have := h.isLt; omega⟩, ⟨by omega, by have := w.isLt; omega⟩⟩]
  have eh : (⟨h.val + 1 - 1, by have := h.isLt; omega⟩ : Fin 256) = h := Fin.ext (Nat.add_sub_cancel _ _)
  have ew : (⟨w.val + 1 - 1, by have := w.isLt; omega⟩ : Fin 256) = w := Fin.ext (Nat.add_sub_cancel _ _)
  show v (ix3 c h w) = v (ix3 c ⟨h.val + 1 - 1, _⟩ ⟨w.val + 1 - 1, _⟩)
  rw [eh, ew]

theorem sl_rows_lo : T3.Slices ![0, 0, 0] ⟨3, ![16, 255, 256]⟩ := by decide
theorem sl_rows_hi : T3.Slices ![0, 1, 0] ⟨3, ![16, 255, 256]⟩ := by decide
theorem sl_cols_lo : T3.Slices ![0, 0, 0] ⟨3, ![16, 256, 255]⟩ := by decide
theorem sl_cols_hi : T3.Slices ![0, 0, 1] ⟨3, ![16, 256, 255]⟩ := by decide
theorem cat_rows_lo : Shape.Concatenates [⟨3, ![16, 1, 256]⟩, ⟨3, ![16, 255, 256]⟩] T3 1 := by decide
theorem cat_rows_hi : Shape.Concatenates [⟨3, ![16, 255, 256]⟩, ⟨3, ![16, 1, 256]⟩] T3 1 := by decide
theorem cat_cols_lo : Shape.Concatenates [⟨3, ![16, 256, 1]⟩, ⟨3, ![16, 256, 255]⟩] T3 2 := by decide
theorem cat_cols_hi : Shape.Concatenates [⟨3, ![16, 256, 255]⟩, ⟨3, ![16, 256, 1]⟩] T3 2 := by decide

/-- Rows one step down, row 0 filled with `z`. -/
def rowsDown (z : α) (u : T3.Idx → α) : T3.Idx → α :=
  concatenate T3 1 [⟨⟨3, ![16, 1, 256]⟩, broadcast ⟨3, ![16, 1, 256]⟩ z⟩,
    ⟨⟨3, ![16, 255, 256]⟩, extractStridedSlice ⟨3, ![16, 255, 256]⟩ ![0, 0, 0] u sl_rows_lo⟩] cat_rows_lo

/-- Rows one step up, row 255 filled with `z`. -/
def rowsUp (z : α) (u : T3.Idx → α) : T3.Idx → α :=
  concatenate T3 1 [⟨⟨3, ![16, 255, 256]⟩, extractStridedSlice ⟨3, ![16, 255, 256]⟩ ![0, 1, 0] u sl_rows_hi⟩,
    ⟨⟨3, ![16, 1, 256]⟩, broadcast ⟨3, ![16, 1, 256]⟩ z⟩] cat_rows_hi

/-- Columns one step right, column 0 filled with `z`. -/
def colsRight (z : α) (u : T3.Idx → α) : T3.Idx → α :=
  concatenate T3 2 [⟨⟨3, ![16, 256, 1]⟩, broadcast ⟨3, ![16, 256, 1]⟩ z⟩,
    ⟨⟨3, ![16, 256, 255]⟩, extractStridedSlice ⟨3, ![16, 256, 255]⟩ ![0, 0, 0] u sl_cols_lo⟩] cat_cols_lo

/-- Columns one step left, column 255 filled with `z`. -/
def colsLeft (z : α) (u : T3.Idx → α) : T3.Idx → α :=
  concatenate T3 2 [⟨⟨3, ![16, 256, 255]⟩, extractStridedSlice ⟨3, ![16, 256, 255]⟩ ![0, 0, 1] u sl_cols_hi⟩,
    ⟨⟨3, ![16, 256, 1]⟩, broadcast ⟨3, ![16, 256, 1]⟩ z⟩] cat_cols_hi

/-- A row step down lowers the row offset from 1 to 0: bordered row 0 is the border. -/
theorem isTap_rowsDown {z : α} {v u : T3.Idx → α} {q : ℕ} (hu : IsTap z v u 1 q) : IsTap z v (rowsDown z u) 0 q :=
  fun c h w => by
    refine (fill_first_row_apply z u (m := 255) rfl sl_rows_lo cat_rows_lo c h w).trans ?_
    by_cases h0 : h.val = 0
    · rw [if_pos h0]; unfold padRead; rw [dif_neg (by omega)]
    · rw [if_neg h0, hu c ⟨h.val - 1, by have := h.isLt; omega⟩ w]
      have e : (h.val - 1) + 1 = h.val + 0 := by omega
      show padRead z _ ((h.val - 1) + 1) _ = _
      rw [e]

/-- A row step up raises the row offset from 1 to 2: bordered row 257 is the border. -/
theorem isTap_rowsUp {z : α} {v u : T3.Idx → α} {q : ℕ} (hu : IsTap z v u 1 q) : IsTap z v (rowsUp z u) 2 q :=
  fun c h w => by
    refine (fill_last_row_apply z u (m := 255) rfl sl_rows_hi cat_rows_hi c h w).trans ?_
    by_cases h0 : h.val = 255
    · rw [dif_pos h0]; unfold padRead; rw [dif_neg (by omega)]
    · rw [dif_neg h0, hu c ⟨h.val + 1, by have := h.isLt; omega⟩ w]

/-- A column step right lowers the column offset from 1 to 0. -/
theorem isTap_colsRight {z : α} {v u : T3.Idx → α} {p : ℕ} (hu : IsTap z v u p 1) : IsTap z v (colsRight z u) p 0 :=
  fun c h w => by
    refine (fill_first_col_apply z u (m := 255) rfl sl_cols_lo cat_cols_lo c h w).trans ?_
    by_cases h0 : w.val = 0
    · rw [if_pos h0]; unfold padRead; rw [dif_neg (by omega)]
    · rw [if_neg h0, hu c h ⟨w.val - 1, by have := w.isLt; omega⟩]
      have e : (w.val - 1) + 1 = w.val + 0 := by omega
      show padRead z _ _ ((w.val - 1) + 1) = _
      rw [e]

/-- A column step left raises the column offset from 1 to 2. -/
theorem isTap_colsLeft {z : α} {v u : T3.Idx → α} {p : ℕ} (hu : IsTap z v u p 1) : IsTap z v (colsLeft z u) p 2 :=
  fun c h w => by
    refine (fill_last_col_apply z u (m := 255) rfl sl_cols_hi cat_cols_hi c h w).trans ?_
    by_cases h0 : w.val = 255
    · rw [dif_pos h0]; unfold padRead; rw [dif_neg (by omega)]
    · rw [dif_neg h0, hu c h ⟨w.val + 1, by have := w.isLt; omega⟩]

/-! ## The structuring element's entries over a tile -/

theorem sc_col : (⟨2, ![16, 1]⟩ : Shape).ShapeCasts ⟨1, ![16]⟩ := by decide
theorem sc_col3 : (⟨1, ![16]⟩ : Shape).ShapeCasts ⟨3, ![16, 1, 1]⟩ := by decide
theorem bc_col3 : (⟨3, ![16, 1, 1]⟩ : Shape).Broadcasts T3 := by decide

/-- Entry `k` of each channel's flattened structuring element, spread over the channel's image. -/
def biasOf (k : ℕ) (hs : K2.Slices ![0, k] ⟨2, ![16, 1]⟩) (v3 : K2.Idx → α) : T3.Idx → α :=
  broadcastTo T3 (shapeCast ⟨3, ![16, 1, 1]⟩ (shapeCast ⟨1, ![16]⟩
    (extractStridedSlice ⟨2, ![16, 1]⟩ ![0, k] v3 hs) sc_col) sc_col3) bc_col3

theorem biasOf_apply (k : ℕ) (hk : k < 9) (hs : K2.Slices ![0, k] ⟨2, ![16, 1]⟩) (v3 : K2.Idx → α)
    (c : Fin 16) (h w : Fin 256) : biasOf k hs v3 (ix3 c h w) = v3 (ix2 c ⟨k, hk⟩) :=
  column_spread_apply k hk v3 hs sc_col sc_col3 bc_col3 c h w

theorem sl_k0 : K2.Slices ![0, 0] ⟨2, ![16, 1]⟩ := by decide
theorem sl_k1 : K2.Slices ![0, 1] ⟨2, ![16, 1]⟩ := by decide
theorem sl_k2 : K2.Slices ![0, 2] ⟨2, ![16, 1]⟩ := by decide
theorem sl_k3 : K2.Slices ![0, 3] ⟨2, ![16, 1]⟩ := by decide
theorem sl_k4 : K2.Slices ![0, 4] ⟨2, ![16, 1]⟩ := by decide
theorem sl_k5 : K2.Slices ![0, 5] ⟨2, ![16, 1]⟩ := by decide
theorem sl_k6 : K2.Slices ![0, 6] ⟨2, ![16, 1]⟩ := by decide
theorem sl_k7 : K2.Slices ![0, 7] ⟨2, ![16, 1]⟩ := by decide
theorem sl_k8 : K2.Slices ![0, 8] ⟨2, ![16, 1]⟩ := by decide

/-! ## The tile's dilation as a vector program computes it -/

/-- A binary operation entry by entry. -/
def vop (f : α → α → α) (x y : T3.Idx → α) : T3.Idx → α := fun i => f (x i) (y i)

/-- The nine windows of the tile `v`, each plus its tap's entry of `v3`, combined in tap order. -/
def body (add mx : α → α → α) (z : α) (v : T3.Idx → α) (v3 : K2.Idx → α) : T3.Idx → α :=
  vop mx (vop mx (vop mx (vop mx (vop mx (vop mx (vop mx (vop mx
    (vop add (colsRight z (rowsDown z v)) (biasOf 0 sl_k0 v3))
    (vop add (rowsDown z v) (biasOf 1 sl_k1 v3)))
    (vop add (colsLeft z (rowsDown z v)) (biasOf 2 sl_k2 v3)))
    (vop add (colsRight z v) (biasOf 3 sl_k3 v3)))
    (vop add v (biasOf 4 sl_k4 v3)))
    (vop add (colsLeft z v) (biasOf 5 sl_k5 v3)))
    (vop add (colsRight z (rowsUp z v)) (biasOf 6 sl_k6 v3)))
    (vop add (rowsUp z v) (biasOf 7 sl_k7 v3)))
    (vop add (colsLeft z (rowsUp z v)) (biasOf 8 sl_k8 v3))

/-- The tile's result at `(c, h, w)` is the nine-tap combination of bordered reads of channel `c` around `(h, w)`
    with row `c` of `v3`. -/
theorem body_apply (add mx : α → α → α) (z : α) (v : T3.Idx → α) (v3 : K2.Idx → α) (c : Fin 16) (h w : Fin 256) :
    body add mx z v v3 (ix3 c h w)
      = dil9 add mx (fun p q => padRead z (fun h' w' => v (ix3 c h' w')) (h.val + p) (w.val + q))
          (fun k => v3 (ix2 c ⟨k % 9, Nat.mod_lt _ (by decide)⟩)) := by
  have t11 := isTap_self z v
  have t01 := isTap_rowsDown t11
  have t21 := isTap_rowsUp t11
  have t00 := isTap_colsRight t01
  have t02 := isTap_colsLeft t01
  have t10 := isTap_colsRight t11
  have t12 := isTap_colsLeft t11
  have t20 := isTap_colsRight t21
  have t22 := isTap_colsLeft t21
  simp only [body, vop]
  rw [t00 c h w, t01 c h w, t02 c h w, t10 c h w, t11 c h w, t12 c h w, t20 c h w, t21 c h w, t22 c h w,
    biasOf_apply 0 (by decide), biasOf_apply 1 (by decide), biasOf_apply 2 (by decide), biasOf_apply 3 (by decide),
    biasOf_apply 4 (by decide), biasOf_apply 5 (by decide), biasOf_apply 6 (by decide), biasOf_apply 7 (by decide),
    biasOf_apply 8 (by decide)]
  rfl

end Cert.Dilation
-- ==== Proof.KernelValue.lean ====
/-
  What the idealized kernel leaves in its result array: the dilation `Cert.Dilation.G` of the two arguments.
  A grid point `(b, cb)` works on image `b`, channels `16 cb … 16 cb + 15`: its input block is that tile of the image
  batch, its second block rows `16 cb …` of the structuring elements flattened to `[64, 9]` (entry `(p, q)` at column
  `3 p + q`), and it writes the tile's dilation (`Cert.Dilation.body`) to the same tile of the result. A tile's
  dilation reads no other channel and no other image, so it is the tile of the whole dilation; the 64 tiles cover
  the result array.
-/
import proofs.«161771_j52261162058289_2_alg».proof.Proof.Gen.KernelIdeal.Value
import proofs.«161771_j52261162058289_2_alg».proof.Proof.Dilation
import Idealize.ShloMosaic.Lib.StableHlo.Run

set_option maxRecDepth 16384

noncomputable section

namespace Cert.KernelIdeal.DilValue

open Cert.KernelIdeal Cert.KernelIdeal.Gen Idealize.ShloMosaic Idealize.ShloMosaic.TcCoe Idealize.SL.Sem
open Idealize.ShloMosaic.Pipeline (Dat)
open Idealize.ShloMosaic.ValueIdx Cert.Dilation

variable {F : FTy → Type} [FloatOps F]
variable (m : (ℓ : Loc nD τ sig) → Buf (Elt F) ℓ) (ρ : Dev nD → PrngReg)

/-- The border value, `-10000`. -/
abbrev zf : F .f32 := FloatOps.ofBits .f32 0xC61C4000#32

/-! ## The body's store is the tile's dilation -/

/-- The stored value is the tile's dilation of the two loaded blocks, up to the unit leading axis. -/
theorem pay_eq (x0 : Vec F S1x16x256x256 .f32) (x1 : Vec F S16x9 .f32) :
    k0_pay1 (k0_pay2 x0) (k0_pay3 x1) (k0_pay4 x0 x1) (k0_pay5 (F := F)) (k0_pay6 x0)
      = shapeCast S1x16x256x256 (body FloatOps.addf FloatOps.maximumf (zf (F := F))
          (shapeCast S16x256x256 x0 shapeCasts_S1x16x256x256_S16x256x256)
          (shapeCast S16x9 x1 shapeCasts_S16x9_S16x9)) shapeCasts_S16x256x256_S1x16x256x256 := rfl

theorem hz4 : (![0, 0, 0, 0] : Fin 4 → Nat) = fun _ => 0 := funext fun a => by fin_cases a <;> rfl
theorem hz2 : (![0, 0] : Fin 2 → Nat) = fun _ => 0 := funext fun a => by fin_cases a <;> rfl

/-- What the body leaves in the output block, as that dilation. -/
theorem out_eq (x0 : Vec F S1x16x256x256 .f32) (x1 : Vec F S16x9 .f32) :
    out0_2 x0 x1 = shapeCast S1x16x256x256 (body FloatOps.addf FloatOps.maximumf (zf (F := F))
          (shapeCast S16x256x256 x0 shapeCasts_S1x16x256x256_S16x256x256)
          (shapeCast S16x9 x1 shapeCasts_S16x9_S16x9)) shapeCasts_S16x256x256_S1x16x256x256 := by
  unfold out0_2
  rw [View.canon_unit_zero hz4]
  simp only [View.ld_unit_zero (S := S1x16x256x256) hz4, View.ld_unit_zero (S := S16x9) hz2]
  exact pay_eq x0 x1

/-- The output block at channel `cc` of the tile, point `(h, w)`: the nine taps over the bordered channel `cc` of
    the input block, with row `cc` of the second block. -/
theorem out_apply (x0 : Vec F S1x16x256x256 .f32) (x1 : Vec F S16x9 .f32) (cc : Fin 16) (h w : Fin 256) :
    out0_2 x0 x1 (ix4 (0 : Fin 1) cc h w)
      = dil9 FloatOps.addf FloatOps.maximumf
          (fun p q => padRead (zf (F := F)) (fun h' w' => x0 (ix4 (0 : Fin 1) cc h' w')) (h.val + p) (w.val + q))
          (fun k => x1 (ix2 cc ⟨k % 9, Nat.mod_lt _ (by decide)⟩)) := by
  rw [out_eq]
  refine (shapeCast_abc_1abc_apply _ _ (0 : Fin 1) cc h w).trans ?_
  refine (body_apply _ _ _ _ _ cc h w).trans ?_
  have e1 : ∀ (h' w' : Fin 256), shapeCast S16x256x256 x0 shapeCasts_S1x16x256x256_S16x256x256 (ix3 cc h' w')
      = x0 (ix4 (0 : Fin 1) cc h' w') := fun h' w' => shapeCast_1abc_abc_apply x0 _ cc h' w'
  simp only [e1, shapeCast_self]

/-! ## The blocks of a grid point -/

/-- The printed index maps over the 64 grid points: the input tile and the output tile are the same tile; the second
    block is the output's channel block of the flattened structuring elements; the tiles span whole images. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 2) = win0_2.index t (1 : Fin 4) ∧ win0_1.index t (1 : Fin 2) = 0
    ∧ win0_2.index t (2 : Fin 4) = 0 ∧ win0_2.index t (3 : Fin 4) = 0
    ∧ win0_2.index t (0 : Fin 4) < 16 ∧ win0_2.index t (1 : Fin 4) < 4 :=
  (by decide +kernel : ∀ t : Fin grid0.N, _)

/-- Every (image, channel block) pair is some grid point's. -/
theorem idx_onto : ∀ (q0 : Fin 16) (q1 : Fin 4), ∃ t : Fin cfg0.N, win0_2.index t = ![q0.val, q1.val, 0, 0] :=
  (by decide +kernel : ∀ (q0 : Fin 16) (q1 : Fin 4), ∃ t : Fin grid0.N, win0_2.index t = ![q0.val, q1.val, 0, 0])

/-- The image a grid point works on, and a channel of its tile as a channel of the batch. -/
def imgOf (t : Fin cfg0.N) : Fin 16 := ⟨win0_2.index t (0 : Fin 4), (idx_facts t).2.2.2.2.2.2.2.2.1⟩
def chanOf (t : Fin cfg0.N) (cc : Fin 16) : Fin 64 :=
  ⟨win0_2.index t (1 : Fin 4) * 16 + cc.val, by have := (idx_facts t).2.2.2.2.2.2.2.2.2; have := cc.isLt; omega⟩

/-- The output block's entry `(cc, h, w)` lies at `(image, channel, h, w)` of the result array. -/
theorem emb2_apply (t : Fin cfg0.N) (cc : Fin 16) (h w : Fin 256) :
    ((cfg0.win 2).blk t).view.emb (ix4 (0 : Fin 1) cc h w) = ix4 (imgOf t) (chanOf t cc) h w := by
  obtain ⟨e0, e1, e2, e3, e4, e5, e6, e7, e8, e9⟩ := idx_facts t
  funext a; apply Fin.ext
  match a with
  | ⟨0, _⟩ => show win0_2.index t (0 : Fin 4) * 1 + 1 * 0 = win0_2.index t (0 : Fin 4); omega
  | ⟨1, _⟩ => show win0_2.index t (1 : Fin 4) * 16 + 1 * cc.val = win0_2.index t (1 : Fin 4) * 16 + cc.val; omega
  | ⟨2, _⟩ => show win0_2.index t (2 : Fin 4) * 256 + 1 * h.val = h.val; omega
  | ⟨3, _⟩ => show win0_2.index t (3 : Fin 4) * 256 + 1 * w.val = w.val; omega

/-- The input block is the same tile of the first argument. -/
theorem blk0_apply (c : Dev nD) (t : Fin cfg0.N) (cc : Fin 16) (h w : Fin 256) :
    iblk m c 0 t (ix4 (0 : Fin 1) cc h w)
      = m ((c : Thread nD τ).loc main_arg0) (ix4 (imgOf t) (chanOf t cc) h w) := by
  obtain ⟨e0, e1, e2, e3, e4, e5, e6, e7, e8, e9⟩ := idx_facts t
  show V m c main_arg0 (((cfg0.win 0).blk t).view.emb (ix4 (0 : Fin 1) cc h w)) = _
  rw [V_main_arg0]
  refine congrArg _ (funext fun a => Fin.ext ?_)
  match a with
  | ⟨0, _⟩ => show win0_0.index t (0 : Fin 4) * 1 + 1 * 0 = win0_2.index t (0 : Fin 4); omega
  | ⟨1, _⟩ => show win0_0.index t (1 : Fin 4) * 16 + 1 * cc.val = win0_2.index t (1 : Fin 4) * 16 + cc.val; omega
  | ⟨2, _⟩ => show win0_0.index t (2 : Fin 4) * 256 + 1 * h.val = h.val; omega
  | ⟨3, _⟩ => show win0_0.index t (3 : Fin 4) * 256 + 1 * w.val = w.val; omega

/-- The array the second window stages is the second argument flattened from `[64, 3, 3]` to `[64, 9]`. -/
theorem V_main_v0 (c : Dev nD) :
    (V m c main_v0 : S64x9.Idx → F .f32)
      = shapeCast S64x9 (m ((c : Thread nD τ).loc main_arg1)) shapeCasts_S64x3x3_S64x9 := by
  dsimp only [Gen.V, Gen.hostOps0]; after_results; rfl

/-- The second block's entry `(cc, k)` is entry `(k / 3, k % 3)` of the channel's structuring element. -/
theorem blk1_apply (c : Dev nD) (t : Fin cfg0.N) (cc : Fin 16) (k : Fin 9) :
    iblk m c 1 t (ix2 cc k)
      = m ((c : Thread nD τ).loc main_arg1)
          (ix3 (chanOf t cc) ⟨k.val / 3, by have := k.isLt; omega⟩ ⟨k.val % 3, Nat.mod_lt _ (by decide)⟩) := by
  obtain ⟨e0, e1, e2, e3, e4, e5, e6, e7, e8, e9⟩ := idx_facts t
  show (V m c main_v0 : S64x9.Idx → F .f32) (((cfg0.win 1).blk t).view.emb (ix2 cc k)) = _
  rw [V_main_v0]
  refine shapeCast_apply _ _ _ _ ?_
  show (S64x3x3.rowMajor (ix3 (chanOf t cc) ⟨k.val / 3, _⟩ ⟨k.val % 3, _⟩)).val
      = (S64x9.rowMajor (((cfg0.win 1).blk t).view.emb (ix2 cc k))).val
  rw [Shape.rowMajor_val_three, Shape.rowMajor_val_two]
  show ((win0_2.index t (1 : Fin 4) * 16 + cc.val) * 3 + k.val / 3) * 3 + k.val % 3
      = (win0_1.index t (0 : Fin 2) * 16 + 1 * cc.val) * 9 + (win0_1.index t (1 : Fin 2) * 9 + 1 * k.val)
  omega

/-! ## From the tiles to the array -/

/-- What a grid point writes back is its tile of the whole dilation. -/
theorem flushed_eq (c : Dev nD) (t : Fin cfg0.N) :
    (dats m 0 c).flushed 2 t = ((cfg0.win 2).blk t).view.read (Elt F)
      (G FloatOps.addf FloatOps.maximumf (zf (F := F)) (m ((c : Thread nD τ).loc main_arg0))
        (m ((c : Thread nD τ).loc main_arg1))) := by
  rw [Value.flushed2]
  refine funext fun (y : S1x16x256x256.Idx) => ?_
  obtain ⟨u, cc, h, w, rfl⟩ : ∃ (u : Fin 1) (cc : Fin 16) (h w : Fin 256), y = ix4 u cc h w :=
    ⟨y 0, y 1, y 2, y 3, eq_ix4 y⟩
  obtain rfl : u = 0 := Subsingleton.elim _ _
  show out0_2 (iblk m c 0 t) (iblk m c 1 t) (ix4 (0 : Fin 1) cc h w)
    = G FloatOps.addf FloatOps.maximumf (zf (F := F)) (m ((c : Thread nD τ).loc main_arg0))
        (m ((c : Thread nD τ).loc main_arg1)) (((cfg0.win 2).blk t).view.emb (ix4 (0 : Fin 1) cc h w))
  rw [emb2_apply]
  refine (out_apply (iblk m c 0 t) (iblk m c 1 t) cc h w).trans ?_
  show _ = Gat FloatOps.addf FloatOps.maximumf (zf (F := F)) (m ((c : Thread nD τ).loc main_arg0))
        (m ((c : Thread nD τ).loc main_arg1)) (imgOf t) (chanOf t cc) h w
  unfold Gat
  have hR : (fun (h' w' : Fin 256) => iblk m c 0 t (ix4 (0 : Fin 1) cc h' w'))
      = fun h' w' => m ((c : Thread nD τ).loc main_arg0) (ix4 (imgOf t) (chanOf t cc) h' w') :=
    funext fun h' => funext fun w' => blk0_apply m c t cc h' w'
  have hB : (fun k : ℕ => iblk m c 1 t (ix2 cc ⟨k % 9, Nat.mod_lt _ (by decide)⟩))
      = fun k : ℕ => m ((c : Thread nD τ).loc main_arg1)
          (ix3 (chanOf t cc) ⟨k / 3 % 3, Nat.mod_lt _ (by decide)⟩ ⟨k % 3, Nat.mod_lt _ (by decide)⟩) :=
    funext fun k => by
      rw [blk1_apply]
      refine congrArg _ (funext fun a => Fin.ext ?_)
      match a with
      | ⟨0, _⟩ => rfl
      | ⟨1, _⟩ => show k % 9 / 3 = k / 3 % 3; omega
      | ⟨2, _⟩ => show k % 9 % 3 = k % 3; omega
  rw [hR, hB]

/-- An index of the result array is in a grid point's tile iff each coordinate is in the tile's range. -/
theorem mem_blk (t : Fin cfg0.N) (i : S16x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v1).slice (win0_2.rect t)).set ↔ _
  rw [View.set_slice_whole, Rect.mem_set_unit]
  exact Iff.rfl

/-- Every index of the result array is in some grid point's tile: image `i 0`, channel block `i 1 / 16`. -/
theorem cover (i : S16x64x256x256.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 256 := (i 2).isLt
  have h3 : (i 3).val < 256 := (i 3).isLt
  obtain ⟨t, ht⟩ := idx_onto ⟨(i 0).val, h0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The result array after the run is the dilation of the two arguments. -/
theorem final (c : Dev nD) :
    (dats m 0 c).arrAt 2 cfg0.N = G FloatOps.addf FloatOps.maximumf (zf (F := F))
      (m ((c : Thread nD τ).loc main_arg0)) (m ((c : Thread nD τ).loc main_arg1)) :=
  (dats m 0 c).arrAt_eq_of_cover 2 _ (fun t _ => flushed_eq m c t) cover

/-- Every weakly fair execution terminates with the result array at the dilation of the arguments, the arguments
    unchanged. -/
theorem run : θ_run defs (onTc (τ := τ) (main (F := F))) ⟨m, fun _ => 0, ρ⟩ fun r => ∀ c : Dev nD,
      r.2.mem ((c : Thread nD τ).loc main_v1) = G FloatOps.addf FloatOps.maximumf (zf (F := F))
        (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.DilValue

end
-- ==== Proof.RefValue.lean ====
/-
  The reference program's result is the dilation `Cert.Dilation.G` of its two arguments: the reference surrounds every
  image with a one-entry border of the constant, and for each tap `(p, q)` cuts the 256×256 window that starts at
  `(p, q)` of the bordered image — at `(h, w)` that is the bordered image at `(h + p, w + q)` — and adds entry `(p, q)`
  of the channel's structuring element, spread over the image; the nine terms are combined by `maximum` in tap order.
-/
import proofs.«161771_j52261162058289_2_alg».proof.Proof.Gen.ReferenceIdeal.Run
import proofs.«161771_j52261162058289_2_alg».proof.Proof.Dilation

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Dilation Cert.Lib.Shift

variable {F : FTy → Type} [FloatOps F]

/-- The window of the bordered batch that starts at `(p, q)` of every image, read at `(b, c, h, w)`: the bordered
    image `(b, c)` at `(h + p, w + q)`. -/
theorem window_apply (p q : ℕ) (X : S16x64x256x256.Idx → F .f32)
    (hp : S16x64x256x256.Pads ![0, 0, 1, 1] ![0, 0, 1, 1] ![0, 0, 0, 0] S16x64x258x258) (hu : 0 < S_.numel)
    (hs : S16x64x258x258.Slices ![0, 0, p, q] S16x64x256x256) (b : Fin 16) (c : Fin 64) (h w : Fin 256) :
    extractStridedSlice S16x64x256x256 ![0, 0, p, q]
        (pad S16x64x258x258 ![0, 0, 1, 1] ![0, 0, 1, 1] ![0, 0, 0, 0] X (id (constant S_ .f32 0xC61C4000#32)) hp hu) hs
        (ix4 b c h w)
      = padRead (FloatOps.ofBits .f32 0xC61C4000#32 : F .f32) (fun h' w' => X (ix4 b c h' w')) (h.val + p) (w.val + q) := by
  have bp : p + 256 ≤ 258 := by obtain ⟨_, h'⟩ := hs; exact h' ⟨2, by decide⟩
  have bq : q + 256 ≤ 258 := by obtain ⟨_, h'⟩ := hs; exact h' ⟨3, by decide⟩
  refine (extractStridedSlice_apply _ _ hs _
    (ix4 b c ⟨h.val + p, by have := h.isLt; omega⟩ ⟨w.val + q, by have := w.isLt; omega⟩) (fun ax => by
      match ax with
      | ⟨0, _⟩ => exact (Nat.zero_add _).symm
      | ⟨1, _⟩ => exact (Nat.zero_add _).symm
      | ⟨2, _⟩ => exact Nat.add_comm _ _
      | ⟨3, _⟩ => exact Nat.add_comm _ _)).trans ?_
  refine (pad_border_apply (n2 := 256) (n3 := 256) rfl rfl X _ hp hu b c _ _).trans ?_
  rfl

/-- Entry `(p, q)` of every channel's structuring element spread over the batch, read at `(b, c, h, w)`. -/
theorem elem_apply (p q : ℕ) (hp : p < 3) (hq : q < 3) (W : S64x3x3.Idx → F .f32)
    (hs : S64x3x3.Slices ![0, p, q] S64x1x1) (hc : S64x1x1.ShapeCasts S64)
    (hb1 : S64.BroadcastsInDim S1x64x1x1 ![1]) (hb2 : S1x64x1x1.BroadcastsInDim S16x64x256x256 ![0, 1, 2, 3])
    (b : Fin 16) (c : Fin 64) (h w : Fin 256) :
    broadcastInDim S16x64x256x256 ![0, 1, 2, 3] hb2 (broadcastInDim S1x64x1x1 ![1] hb1
        (shapeCast S64 (extractStridedSlice S64x1x1 ![0, p, q] W hs) hc)) (ix4 b c h w)
      = W (ix3 c ⟨p, hp⟩ ⟨q, hq⟩) := by
  refine (broadcastInDim_apply _ hb2 _ _ (ix4 (0 : Fin 1) c (0 : Fin 1) (0 : Fin 1)) (fun a => ?_)).trans ?_
  · match a with
    | ⟨0, _⟩ => show 0 = if (1 : ℕ) = 1 then 0 else b.val; rw [if_pos rfl]
    | ⟨1, _⟩ => show c.val = if (64 : ℕ) = 1 then 0 else c.val; rw [if_neg (by decide)]
    | ⟨2, _⟩ => show 0 = if (1 : ℕ) = 1 then 0 else h.val; rw [if_pos rfl]
    | ⟨3, _⟩ => show 0 = if (1 : ℕ) = 1 then 0 else w.val; rw [if_pos rfl]
  refine (broadcastInDim_apply _ hb1 _ _ (ix1 c) (fun a => ?_)).trans ?_
  · match a with
    | ⟨0, _⟩ => show c.val = if (64 : ℕ) = 1 then 0 else c.val; rw [if_neg (by decide)]
  refine (shapeCast_apply _ hc _ (ix3 c (0 : Fin 1) (0 : Fin 1)) ?_).trans ?_
  · rw [Shape.rowMajor_val_three, Shape.rowMajor_val_one]
    show (c.val * 1 + 0) * 1 + 0 = c.val
    omega
  exact extractStridedSlice_apply _ W hs _ (ix3 c ⟨p, hp⟩ ⟨q, hq⟩) (fun ax => by
    match ax with
    | ⟨0, _⟩ => exact (Nat.zero_add _).symm
    | ⟨1, _⟩ => show p = p + 0; omega
    | ⟨2, _⟩ => show q = q + 0; omega)

/-- The reference run's result term is the dilation of the two arguments. -/
theorem result_eq (m : (ℓ : Loc nD τ sig) → Buf (Elt F) ℓ) (c : Dev nD) :
    Cert.ReferenceIdeal.Value.res_main_v62 m c
      = G FloatOps.addf FloatOps.maximumf (FloatOps.ofBits .f32 0xC61C4000#32 : F .f32)
          (m ((c.tc : Thread nD τ).loc main_arg0)) (m ((c.tc : Thread nD τ).loc main_arg1)) := by
  refine funext fun (i : S16x64x256x256.Idx) => ?_
  obtain ⟨b, ch, h, w, rfl⟩ : ∃ (b : Fin 16) (ch : Fin 64) (h w : Fin 256), i = ix4 b ch h w :=
    ⟨i 0, i 1, i 2, i 3, eq_ix4 i⟩
  unfold Cert.ReferenceIdeal.Value.res_main_v62
  simp only [Idealize.ShloMosaic.maximumf, Idealize.ShloMosaic.addf]
  rw [window_apply 0 0, window_apply 0 1, window_apply 0 2, window_apply 1 0, window_apply 1 1, window_apply 1 2,
    window_apply 2 0, window_apply 2 1, window_apply 2 2,
    elem_apply 0 0 (by decide) (by decide), elem_apply 0 1 (by decide) (by decide), elem_apply 0 2 (by decide) (by decide),
    elem_apply 1 0 (by decide) (by decide), elem_apply 1 1 (by decide) (by decide), elem_apply 1 2 (by decide) (by decide),
    elem_apply 2 0 (by decide) (by decide), elem_apply 2 1 (by decide) (by decide), elem_apply 2 2 (by decide) (by decide)]
  rfl

end Cert.ReferenceIdeal.RefValue

end
-- ==== Proof.lean ====
/-
  The kernel computes a grey-scale dilation: every 256×256 image of a batch of 16 × 64 is surrounded by a one-entry
  border of the constant -10000, and the value at a point is the maximum, over the nine taps `(p, q)` of a 3×3 window, of
  the bordered image at the point moved by the tap plus entry `(p, q)` of the channel's structuring element.
  The kernel works tile by tile — one image, sixteen channels — and makes each tap's window from the tile by a row step
  and a column step that fill the vacated row and column with the constant; the reference pads the whole batch once and
  cuts the nine windows out of the padded batch. Both add the same entry to the same bordered value and take the
  maxima in the same order of taps, so the two results are one function of the two arguments
  (`Cert.Dilation.G`), with no law of addition or maximum used: `Proof/KernelValue.lean` reads the kernel's result
  array as that function, `Proof/RefValue.lean` the reference's. The three frames are the programs' runs with the
  result dropped; the idealization rewrote nothing.
-/
import proofs.«161771_j52261162058289_2_alg».proof.Defs
import proofs.«161771_j52261162058289_2_alg».proof.Proof.Gen.Kernel
import proofs.«161771_j52261162058289_2_alg».proof.Proof.Gen.Kernel.Frame
import proofs.«161771_j52261162058289_2_alg».proof.Proof.Gen.KernelIdeal
import proofs.«161771_j52261162058289_2_alg».proof.Proof.Gen.KernelIdeal.Frame
import proofs.«161771_j52261162058289_2_alg».proof.Proof.Gen.KernelIdeal.Value
import proofs.«161771_j52261162058289_2_alg».proof.Proof.Gen.ReferenceIdeal
import proofs.«161771_j52261162058289_2_alg».proof.Proof.Gen.ReferenceIdeal.Run
import proofs.«161771_j52261162058289_2_alg».proof.Proof.Gen.Pre_finite_inputs
import proofs.«161771_j52261162058289_2_alg».proof.Proof.KernelValue
import proofs.«161771_j52261162058289_2_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both runs end with the dilation of the arguments in their result arrays. -/
theorem algebraic : Cert.algebraic_KernelIdeal_ReferenceIdeal := by
  intro m ρ m' ρ' _ hagree
  refine ⟨_, Cert.KernelIdeal.DilValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
